-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x128 : Shape := ⟨2, ![4096, 128]⟩
abbrev S128x4096 : Shape := ⟨2, ![128, 4096]⟩
abbrev S167772 : Shape := ⟨1, ![167772]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x128 : S_.BroadcastsInDim S4096x128 (![] : Fin 0 → Fin S4096x128.rank)
  reducesTo_S4096x128_S_d0_1 : S4096x128.ReducesTo [0, 1] S_
  bcast_S_S128x4096 : S_.BroadcastsInDim S128x4096 (![] : Fin 0 → Fin S128x4096.rank)
  reducesTo_S128x4096_S_d0_1 : S128x4096.ReducesTo [0, 1] S_
  bcast_S_S167772 : S_.BroadcastsInDim S167772 (![] : Fin 0 → Fin S167772.rank)
  reducesTo_S167772_S_d0 : S167772.ReducesTo [0] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg5 : FVec F S4096 .f32) (main_v13 : IVec S_ 1) (main_v16 : IVec S167772 1) : IVec S_ 1 :=
  let main_c_5 : IVec S_ 1 := constantI S_ 1 1#1
  let main_v17 : IVec S_ 1 := (fun x v => Host.reduce IntOp.andi x v reducesTo_S167772_S_d0 h_S_) main_v16 main_c_5
  let main_v18 : IVec S_ 1 := andi main_v13 main_v17
  let main_v19 : FVec F S4096 .f32 := Host.absf main_arg5
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  main_v23

def fn {F : FTy → Type} [FloatOps F] (main_arg0 : FVec F S8192x4096 .f32) (main_arg1 : FVec F S4096x128 .f32) (main_arg2 : FVec F S128x4096 .f32) (main_arg3 : FVec F S167772 .f32) (main_arg4 : IVec S167772 32) (main_arg5 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x128 .f32 := Host.absf main_arg1
  let main_cst_0 : FVec F S_ .f32 := constant S_ .f32 0x7F800000#32
  let main_v5 : FVec F S4096x128 .f32 := broadcastInDim S4096x128 ![] bcast_S_S4096x128 main_cst_0
  let main_v6 : IVec S4096x128 1 := cmpf .olt main_v4 main_v5
  let main_c_1 : IVec S_ 1 := constantI S_ 1 1#1
  let main_v7 : IVec S_ 1 := (fun x v => Host.reduce IntOp.andi x v reducesTo_S4096x128_S_d0_1 h_S_) main_v6 main_c_1
  let main_v8 : IVec S_ 1 := andi main_v3 main_v7
  let main_v9 : FVec F S128x4096 .f32 := Host.absf main_arg2
  let main_cst_2 : FVec F S_ .f32 := constant S_ .f32 0x7F800000#32
  let main_v10 : FVec F S128x4096 .f32 := broadcastInDim S128x4096 ![] bcast_S_S128x4096 main_cst_2
  let main_v11 : IVec S128x4096 1 := cmpf .olt main_v9 main_v10
  let main_c_3 : IVec S_ 1 := constantI S_ 1 1#1
  let main_v12 : IVec S_ 1 := (fun x v => Host.reduce IntOp.andi x v reducesTo_S128x4096_S_d0_1 h_S_) main_v11 main_c_3
  let main_v13 : IVec S_ 1 := andi main_v8 main_v12
  let main_v14 : FVec F S167772 .f32 := Host.absf main_arg3
  let main_cst_4 : FVec F S_ .f32 := constant S_ .f32 0x7F800000#32
  let main_v15 : FVec F S167772 .f32 := broadcastInDim S167772 ![] bcast_S_S167772 main_cst_4
  let main_v16 : IVec S167772 1 := cmpf .olt main_v14 main_v15
  fn_part1 (F := F) main_arg5 main_v13 main_v16
-- ==== Kernel.lean ====
abbrev S8192x4096 : Shape := ⟨2, ![8192, 4096]⟩
abbrev S4096x128 : Shape := ⟨2, ![4096, 128]⟩
abbrev S128x4096 : Shape := ⟨2, ![128, 4096]⟩
abbrev S167772 : Shape := ⟨1, ![167772]⟩
abbrev S4096 : Shape := ⟨1, ![4096]⟩
abbrev S_ : Shape := ⟨0, ![]⟩
abbrev S16777216 : Shape := ⟨1, ![16777216]⟩
abbrev S167772x1 : Shape := ⟨2, ![167772, 1]⟩
abbrev S4096x4096 : Shape := ⟨2, ![4096, 4096]⟩
abbrev S1x4096 : Shape := ⟨2, ![1, 4096]⟩
abbrev S256x512 : Shape := ⟨2, ![256, 512]⟩
abbrev S512x4096 : Shape := ⟨2, ![512, 4096]⟩
abbrev S512x128 : Shape := ⟨2, ![512, 128]⟩
abbrev S256x4096 : Shape := ⟨2, ![256, 4096]⟩
abbrev S256x128 : Shape := ⟨2, ![256, 128]⟩

abbrev nBuf : Space → Nat
  | .hbm => 30
  | .vmem => 11
  | .smem => 0
  | _ => 0

abbrev bufTy : (tb : Table) → Fin (tcTables nBuf tb) → BufTy
  | .hbm, ⟨0, _⟩ => ⟨S8192x4096, .f32⟩
  | .hbm, ⟨1, _⟩ => ⟨S4096x128, .f32⟩
  | .hbm, ⟨2, _⟩ => ⟨S128x4096, .f32⟩
  | .hbm, ⟨3, _⟩ => ⟨S167772, .f32⟩
  | .hbm, ⟨4, _⟩ => ⟨S167772, .i32⟩
  | .hbm, ⟨5, _⟩ => ⟨S4096, .f32⟩
  | .hbm, ⟨6, _⟩ => ⟨S_, .f32⟩
  | .hbm, ⟨7, _⟩ => ⟨S128x4096, .f32⟩
  | .hbm, ⟨8, _⟩ => ⟨S128x4096, .f32⟩
  | .hbm, ⟨9, _⟩ => ⟨S4096x128, .f32⟩
  | .hbm, ⟨10, _⟩ => ⟨S4096x128, .bf16⟩
  | .hbm, ⟨11, _⟩ => ⟨S128x4096, .f32⟩
  | .hbm, ⟨12, _⟩ => ⟨S128x4096, .bf16⟩
  | .hbm, ⟨13, _⟩ => ⟨S_, .f32⟩
  | .hbm, ⟨14, _⟩ => ⟨S16777216, .f32⟩
  | .hbm, ⟨15, _⟩ => ⟨S_, .i32⟩
  | .hbm, ⟨16, _⟩ => ⟨S167772, .i32⟩
  | .hbm, ⟨17, _⟩ => ⟨S167772, .i1⟩
  | .hbm, ⟨18, _⟩ => ⟨S_, .i32⟩
  | .hbm, ⟨19, _⟩ => ⟨S167772, .i32⟩
  | .hbm, ⟨20, _⟩ => ⟨S167772, .i32⟩
  | .hbm, ⟨21, _⟩ => ⟨S167772, .i32⟩
  | .hbm, ⟨22, _⟩ => ⟨S167772x1, .i32⟩
  | .hbm, ⟨23, _⟩ => ⟨S16777216, .f32⟩
  | .hbm, ⟨24, _⟩ => ⟨S4096x4096, .f32⟩
  | .hbm, ⟨25, _⟩ => ⟨S4096x4096, .f32⟩
  | .hbm, ⟨26, _⟩ => ⟨S4096x4096, .bf16⟩
  | .hbm, ⟨27, _⟩ => ⟨S8192x4096, .bf16⟩
  | .hbm, ⟨28, _⟩ => ⟨S1x4096, .f32⟩
  | .hbm, ⟨29, _⟩ => ⟨S8192x4096, .f32⟩
  | .local _ .vmem, ⟨0, _⟩ => ⟨S256x512, .bf16⟩
  | .local _ .vmem, ⟨1, _⟩ => ⟨S256x512, .bf16⟩
  | .local _ .vmem, ⟨2, _⟩ => ⟨S512x4096, .bf16⟩
  | .local _ .vmem, ⟨3, _⟩ => ⟨S512x4096, .bf16⟩
  | .local _ .vmem, ⟨4, _⟩ => ⟨S512x128, .bf16⟩
  | .local _ .vmem, ⟨5, _⟩ => ⟨S512x128, .bf16⟩
  | .local _ .vmem, ⟨6, _⟩ => ⟨S128x4096, .bf16⟩
  | .local _ .vmem, ⟨7, _⟩ => ⟨S1x4096, .f32⟩
  | .local _ .vmem, ⟨8, _⟩ => ⟨S256x4096, .f32⟩
  | .local _ .vmem, ⟨9, _⟩ => ⟨S256x4096, .f32⟩
  | .local _ .vmem, ⟨10, _⟩ => ⟨S256x128, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_c : Ref sig .tc := ⟨.hbm, 15, rfl⟩
abbrev main_v7 : Ref sig .tc := ⟨.hbm, 16, rfl⟩
abbrev main_v8 : Ref sig .tc := ⟨.hbm, 17, rfl⟩
abbrev main_c_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![32, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S128x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S256x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  bcast_S_S128x4096 : S_.BroadcastsInDim S128x4096 (![] : Fin 0 → Fin S128x4096.rank)
  transposes_S128x4096_S4096x128_1_0 : S128x4096.Transposes [1, 0] S4096x128
  bitsLt_bf16_f32 : FTy.bits .bf16 < FTy.bits .f32
  transposes_S4096x128_S128x4096_1_0 : S4096x128.Transposes [1, 0] S128x4096
  bcast_S_S16777216 : S_.BroadcastsInDim S16777216 (![] : Fin 0 → Fin S16777216.rank)
  bcast_S_S167772 : S_.BroadcastsInDim S167772 (![] : Fin 0 → Fin S167772.rank)
  bcast_S167772_S167772x1_0 : S167772.BroadcastsInDim S167772x1 (![0] : Fin 1 → Fin S167772x1.rank)
  shapeCasts_S16777216_S4096x4096 : S16777216.ShapeCasts S4096x4096
  transposes_S4096x4096_S4096x4096_1_0 : S4096x4096.Transposes [1, 0] S4096x4096
  shapeCasts_S4096_S1x4096 : S4096.ShapeCasts S1x4096
  inb_S256x4096_S256x4096_0_0 : ∀ a, (![0, 0] : Fin 2 → Nat) a + S256x4096.size a ≤ S256x4096.size a
  h_S256x4096 : 0 < S256x4096.numel
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S256x512_S256x512_0_0 : ∀ a, (![0, 0] : Fin 2 → Nat) a + S256x512.size a ≤ S256x512.size a
  h_S256x512 : 0 < S256x512.numel
  shapeCasts_S256x512_S256x512 : S256x512.ShapeCasts S256x512
  shapeCasts_S256x4096_S256x4096 : S256x4096.ShapeCasts S256x4096
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S128x4096_S128x4096_0_0 : ∀ a, (![0, 0] : Fin 2 → Nat) a + S128x4096.size a ≤ S128x4096.size a
  h_S128x4096 : 0 < S128x4096.numel
  shapeCasts_S128x4096_S128x4096 : S128x4096.ShapeCasts S128x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  scatter_S16777216_S167772x1_S167772_n_0_0_1_wf : ScatterDims.WF S16777216 S167772x1 S167772 [] [0] [0] 1
  dot_S256x512_S512x4096_S256x4096_1_0_0_1_n_n_wf : DotDims.WF S256x512 S512x4096 S256x4096 [1] [0] [0] [1] [] []
  dot_S256x512_S512x128_S256x128_1_0_0_1_n_n_wf : DotDims.WF S256x512 S512x128 S256x128 [1] [0] [0] [1] [] []
  dot_S256x128_S128x4096_S256x4096_1_0_0_1_n_n_wf : DotDims.WF S256x128 S128x4096 S256x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x512.size a ≤ S8192x4096.size a
  hwx0_0 : ∀ i : grid0.Coords, EltTy.bits .bf16 = 32 ∨ (Rect.block (s := S8192x4096) S256x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S4096x4096.size a
  hwx0_1 : ∀ i : grid0.Coords, EltTy.bits .bf16 = 32 ∨ (Rect.block (s := S4096x4096) S512x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x128.size a ≤ S4096x128.size a
  hwx0_2 : ∀ i : grid0.Coords, EltTy.bits .bf16 = 32 ∨ (Rect.block (s := S4096x128) S512x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x4096.size a ≤ S128x4096.size a
  hwx0_3 : ∀ i : grid0.Coords, EltTy.bits .bf16 = 32 ∨ (Rect.block (s := S128x4096) S128x4096.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x4096.size a ≤ S1x4096.size a
  hwx0_4 : ∀ i : grid0.Coords, EltTy.bits .f32 = 32 ∨ (Rect.block (s := S1x4096) S1x4096.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x4096.size a ≤ S8192x4096.size a
  hwx0_5 : ∀ i : grid0.Coords, EltTy.bits .f32 = 32 ∨ (Rect.block (s := S8192x4096) S256x4096.size (cc0_transform_5 i) (hinb0_5 i)).WholeWords (EltTy.packing .f32)

variable [Facts₀]

def scatter_S16777216_S167772x1_S167772_n_0_0_1 : ScatterDims S16777216 S167772x1 S167772 where
  updateWindowDims := []
  insertedWindowDims := [0]
  scatterDimsToOperandDims := [0]
  indexVectorDim := 1
  wf := scatter_S16777216_S167772x1_S167772_n_0_0_1_wf
def dot_S256x512_S512x4096_S256x4096_1_0_0_1_n_n : DotDims S256x512 S512x4096 S256x4096 where
  lhsContracting := [1]
  rhsContracting := [0]
  lhsNonContracting := [0]
  rhsNonContracting := [1]
  lhsBatch := []
  rhsBatch := []
  wf := dot_S256x512_S512x4096_S256x4096_1_0_0_1_n_n_wf
def dot_S256x512_S512x128_S256x128_1_0_0_1_n_n : DotDims S256x512 S512x128 S256x128 where
  lhsContracting := [1]
  rhsContracting := [0]
  lhsNonContracting := [0]
  rhsNonContracting := [1]
  lhsBatch := []
  rhsBatch := []
  wf := dot_S256x512_S512x128_S256x128_1_0_0_1_n_n_wf
def dot_S256x128_S128x4096_S256x4096_1_0_0_1_n_n : DotDims S256x128 S128x4096 S256x4096 where
  lhsContracting := [1]
  rhsContracting := [0]
  lhsNonContracting := [0]
  rhsNonContracting := [1]
  lhsBatch := []
  rhsBatch := []
  wf := dot_S256x128_S128x4096_S256x4096_1_0_0_1_n_n_wf

abbrev win0_0 : Pipeline.Window sig grid0 :=
  Pipeline.Window.ofSpec (Memref.whole main_v17) S256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S512x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S512x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S128x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v18) S1x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v19) S256x4096.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S4096x128 : Shape := ⟨2, ![4096, 128]⟩
abbrev S128x4096 : Shape := ⟨2, ![128, 4096]⟩
abbrev S167772 : Shape := ⟨1, ![167772]⟩
abbrev S4096 : Shape := ⟨1, ![4096]⟩
abbrev S_ : Shape := ⟨0, ![]⟩
abbrev S8192x128 : Shape := ⟨2, ![8192, 128]⟩
abbrev S16777216 : Shape := ⟨1, ![16777216]⟩
abbrev S167772x1 : Shape := ⟨2, ![167772, 1]⟩
abbrev S4096x4096 : Shape := ⟨2, ![4096, 4096]⟩
abbrev S1x4096 : Shape := ⟨2, ![1, 4096]⟩

abbrev nBuf : Space → Nat
  | .hbm => 31
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x128, .f32⟩
  | .hbm, ⟨2, _⟩ => ⟨S128x4096, .f32⟩
  | .hbm, ⟨3, _⟩ => ⟨S167772, .f32⟩
  | .hbm, ⟨4, _⟩ => ⟨S167772, .i32⟩
  | .hbm, ⟨5, _⟩ => ⟨S4096, .f32⟩
  | .hbm, ⟨6, _⟩ => ⟨S_, .f32⟩
  | .hbm, ⟨7, _⟩ => ⟨S128x4096, .f32⟩
  | .hbm, ⟨8, _⟩ => ⟨S128x4096, .f32⟩
  | .hbm, ⟨9, _⟩ => ⟨S4096x128, .f32⟩
  | .hbm, ⟨10, _⟩ => ⟨S8192x128, .f32⟩
  | .hbm, ⟨11, _⟩ => ⟨S128x4096, .f32⟩
  | .hbm, ⟨12, _⟩ => ⟨S8192x4096, .f32⟩
  | .hbm, ⟨13, _⟩ => ⟨S_, .f32⟩
  | .hbm, ⟨14, _⟩ => ⟨S16777216, .f32⟩
  | .hbm, ⟨15, _⟩ => ⟨S_, .i32⟩
  | .hbm, ⟨16, _⟩ => ⟨S167772, .i32⟩
  | .hbm, ⟨17, _⟩ => ⟨S167772, .i1⟩
  | .hbm, ⟨18, _⟩ => ⟨S_, .i32⟩
  | .hbm, ⟨19, _⟩ => ⟨S167772, .i32⟩
  | .hbm, ⟨20, _⟩ => ⟨S167772, .i32⟩
  | .hbm, ⟨21, _⟩ => ⟨S167772, .i32⟩
  | .hbm, ⟨22, _⟩ => ⟨S167772x1, .i32⟩
  | .hbm, ⟨23, _⟩ => ⟨S16777216, .f32⟩
  | .hbm, ⟨24, _⟩ => ⟨S4096x4096, .f32⟩
  | .hbm, ⟨25, _⟩ => ⟨S4096x4096, .f32⟩
  | .hbm, ⟨26, _⟩ => ⟨S8192x4096, .f32⟩
  | .hbm, ⟨27, _⟩ => ⟨S8192x4096, .f32⟩
  | .hbm, ⟨28, _⟩ => ⟨S1x4096, .f32⟩
  | .hbm, ⟨29, _⟩ => ⟨S8192x4096, .f32⟩
  | .hbm, ⟨30, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_c : Ref sig .tc := ⟨.hbm, 15, rfl⟩
abbrev main_v7 : Ref sig .tc := ⟨.hbm, 16, rfl⟩
abbrev main_v8 : Ref sig .tc := ⟨.hbm, 17, rfl⟩
abbrev main_c_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩

abbrev nD : Nat := 1
abbrev τ : Topo := Topo.v7x

variable {F : FTy → Type} [FloatOps F]

class Facts₀ : Prop where
  bcast_S_S128x4096 : S_.BroadcastsInDim S128x4096 (![] : Fin 0 → Fin S128x4096.rank)
  transposes_S128x4096_S4096x128_1_0 : S128x4096.Transposes [1, 0] S4096x128
  transposes_S4096x128_S128x4096_1_0 : S4096x128.Transposes [1, 0] S128x4096
  bcast_S_S16777216 : S_.BroadcastsInDim S16777216 (![] : Fin 0 → Fin S16777216.rank)
  bcast_S_S167772 : S_.BroadcastsInDim S167772 (![] : Fin 0 → Fin S167772.rank)
  bcast_S167772_S167772x1_0 : S167772.BroadcastsInDim S167772x1 (![0] : Fin 1 → Fin S167772x1.rank)
  shapeCasts_S16777216_S4096x4096 : S16777216.ShapeCasts S4096x4096
  transposes_S4096x4096_S4096x4096_1_0 : S4096x4096.Transposes [1, 0] S4096x4096
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  dot_S8192x4096_S4096x128_S8192x128_1_0_0_1_n_n_wf : DotDims.WF S8192x4096 S4096x128 S8192x128 [1] [0] [0] [1] [] []
  dot_S8192x128_S128x4096_S8192x4096_1_0_0_1_n_n_wf : DotDims.WF S8192x128 S128x4096 S8192x4096 [1] [0] [0] [1] [] []
  scatter_S16777216_S167772x1_S167772_n_0_0_1_wf : ScatterDims.WF S16777216 S167772x1 S167772 [] [0] [0] 1
  dot_S8192x4096_S4096x4096_S8192x4096_1_0_0_1_n_n_wf : DotDims.WF S8192x4096 S4096x4096 S8192x4096 [1] [0] [0] [1] [] []

variable [Facts₀]

def dot_S8192x4096_S4096x128_S8192x128_1_0_0_1_n_n : DotDims S8192x4096 S4096x128 S8192x128 where
  lhsContracting := [1]
  rhsContracting := [0]
  lhsNonContracting := [0]
  rhsNonContracting := [1]
  lhsBatch := []
  rhsBatch := []
  wf := dot_S8192x4096_S4096x128_S8192x128_1_0_0_1_n_n_wf
def dot_S8192x128_S128x4096_S8192x4096_1_0_0_1_n_n : DotDims S8192x128 S128x4096 S8192x4096 where
  lhsContracting := [1]
  rhsContracting := [0]
  lhsNonContracting := [0]
  rhsNonContracting := [1]
  lhsBatch := []
  rhsBatch := []
  wf := dot_S8192x128_S128x4096_S8192x4096_1_0_0_1_n_n_wf
def scatter_S16777216_S167772x1_S167772_n_0_0_1 : ScatterDims S16777216 S167772x1 S167772 where
  updateWindowDims := []
  insertedWindowDims := [0]
  scatterDimsToOperandDims := [0]
  indexVectorDim := 1
  wf := scatter_S16777216_S167772x1_S167772_n_0_0_1_wf
def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf

class Facts : Prop extends Facts₀ where

variable [Facts]
-- ==== Proof.Pieces.lean ====
/-
  What each control case of the kernel body leaves in the output block's staging buffer and in the carried
  accumulator, as values.

  The body at a grid point (m, k): at k = 0 it zeroes the output block and the low-rank accumulator; at every k it adds
  the product of the x block with the sparse-weight block to the output block and the product of the x block with the
  scaled-A block to the accumulator; at k = 7 it adds the accumulator times the B matrix and the bias row to the output
  block.  Each case stores each buffer whole, so what it leaves is the payload of its last store, with an earlier
  store of the same buffer read back where the case re-loads it:

    first point of a row block   output  0 + x·W_k           accumulator  0 + x·A_k
    an inner point               output  prev + x·W_k        accumulator  prev + x·A_k
    last point of a row block    output  (prev + x·W_k) + (prev_acc + x·A_k)·B + bias      accumulator  prev_acc + x·A_k

  Stated for any float instance.
-/
import proofs.«155832_j61134564491363_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-- An inner point: the output block becomes what it held plus the x block times the sparse-weight block. -/
theorem out_B (c : Dev nD) (i : grid0.Coords) (arg2 : Memref sig .tc .vmem S256x512 .bf16) (harg2 : arg2.IsWhole) (arg3 : Memref sig .tc .vmem S512x4096 .bf16) (harg3 : arg3.IsWhole) (arg4 : Memref sig .tc .vmem S512x128 .bf16) (harg4 : arg4.IsWhole) (arg5 : Memref sig .tc .vmem S128x4096 .bf16) (harg5 : arg5.IsWhole) (arg6 : Memref sig .tc .vmem S1x4096 .f32) (harg6 : arg6.IsWhole) (arg7 : Memref sig .tc .vmem S256x4096 .f32) (harg7 : arg7.IsWhole) (arg8 : Memref sig .tc .vmem S256x128 .f32) (harg8 : arg8.IsWhole) (hc0 : ¬cond0_0 i) (hc1 : ¬cond0_1 i) (x0 : Vec F S256x512 .bf16) (x1 : Vec F S512x4096 .bf16) (x2 : Vec F S512x128 .bf16) (x3 : Vec F S128x4096 .bf16) (x4 : Vec F S1x4096 .f32) (xo5 : Vec F S256x4096 .f32) (xs0 : Vec F S256x128 .f32) :
    out0_B_5 c i arg2 harg2 arg3 harg3 arg4 harg4 arg5 harg5 arg6 harg6 arg7 harg7 arg8 harg8 hc0 hc1 x0 x1 x2 x3 x4 xo5 xs0 = k0_pay4 x0 xo5 x1 := by
  unfold out0_B_5
  rw [View.read_writes_eq_canon _ _ _ (cover0_B_5 c i arg2 harg2 arg3 harg3 arg4 harg4 arg5 harg5 arg6 harg6 arg7 harg7 arg8 harg8 hc0 hc1 x0 x1 x2 x3 x4 xo5 xs0)]
  unfold kernelRun0_B
  dsimp only
  rw [View.canon_unit_zero hz]
  simp only [View.readAt_eq_ld, harg2.read_unread, harg3.read_unread, harg4.read_unread, harg5.read_unread, harg6.read_unread, harg7.read_unread, harg8.read_unread,
    View.ld_unit_zero (S := S256x512) hz, View.ld_unit_zero (S := S512x4096) hz, View.ld_unit_zero (S := S512x128) hz, View.ld_unit_zero (S := S128x4096) hz,
    View.ld_unit_zero (S := S1x4096) hz, View.ld_unit_zero (S := S256x4096) hz, View.ld_unit_zero (S := S256x128) hz]

/-- An inner point: the accumulator becomes what it held plus the x block times the scaled-A block. -/
theorem acc_B (c : Dev nD) (i : grid0.Coords) (arg2 : Memref sig .tc .vmem S256x512 .bf16) (harg2 : arg2.IsWhole) (arg3 : Memref sig .tc .vmem S512x4096 .bf16) (harg3 : arg3.IsWhole) (arg4 : Memref sig .tc .vmem S512x128 .bf16) (harg4 : arg4.IsWhole) (arg5 : Memref sig .tc .vmem S128x4096 .bf16) (harg5 : arg5.IsWhole) (arg6 : Memref sig .tc .vmem S1x4096 .f32) (harg6 : arg6.IsWhole) (arg7 : Memref sig .tc .vmem S256x4096 .f32) (harg7 : arg7.IsWhole) (arg8 : Memref sig .tc .vmem S256x128 .f32) (harg8 : arg8.IsWhole) (hc0 : ¬cond0_0 i) (hc1 : ¬cond0_1 i) (x0 : Vec F S256x512 .bf16) (x1 : Vec F S512x4096 .bf16) (x2 : Vec F S512x128 .bf16) (x3 : Vec F S128x4096 .bf16) (x4 : Vec F S1x4096 .f32) (xo5 : Vec F S256x4096 .f32) (xs0 : Vec F S256x128 .f32) :
    sout0_B_0 c i arg2 harg2 arg3 harg3 arg4 harg4 arg5 harg5 arg6 harg6 arg7 harg7 arg8 harg8 hc0 hc1 x0 x1 x2 x3 x4 xo5 xs0 = k0_pay5 x0 xs0 x2 := by
  unfold sout0_B_0
  rw [View.read_writes_eq_canon _ _ _ (scover0_B_0 c i arg2 harg2 arg3 harg3 arg4 harg4 arg5 harg5 arg6 harg6 arg7 harg7 arg8 harg8 hc0 hc1 x0 x1 x2 x3 x4 xo5 xs0)]
  unfold kernelRun0_B
  dsimp only
  rw [View.canon_unit_zero hz]
  simp only [View.readAt_eq_ld, harg2.read_unread, harg3.read_unread, harg4.read_unread, harg5.read_unread, harg6.read_unread, harg7.read_unread, harg8.read_unread,
    View.ld_unit_zero (S := S256x512) hz, View.ld_unit_zero (S := S512x4096) hz, View.ld_unit_zero (S := S512x128) hz, View.ld_unit_zero (S := S128x4096) hz,
    View.ld_unit_zero (S := S1x4096) hz, View.ld_unit_zero (S := S256x4096) hz, View.ld_unit_zero (S := S256x128) hz]

/-- The first point of a row block: the output block is zeroed, read back, and the first product added. -/
theorem out_A (c : Dev nD) (i : grid0.Coords) (arg2 : Memref sig .tc .vmem S256x512 .bf16) (harg2 : arg2.IsWhole) (arg3 : Memref sig .tc .vmem S512x4096 .bf16) (harg3 : arg3.IsWhole) (arg4 : Memref sig .tc .vmem S512x128 .bf16) (harg4 : arg4.IsWhole) (arg5 : Memref sig .tc .vmem S128x4096 .bf16) (harg5 : arg5.IsWhole) (arg6 : Memref sig .tc .vmem S1x4096 .f32) (harg6 : arg6.IsWhole) (arg7 : Memref sig .tc .vmem S256x4096 .f32) (harg7 : arg7.IsWhole) (arg8 : Memref sig .tc .vmem S256x128 .f32) (harg8 : arg8.IsWhole) (hc0 : cond0_0 i) (hc1 : ¬cond0_1 i) (x0 : Vec F S256x512 .bf16) (x1 : Vec F S512x4096 .bf16) (x2 : Vec F S512x128 .bf16) (x3 : Vec F S128x4096 .bf16) (x4 : Vec F S1x4096 .f32) :
    out0_A_5 c i arg2 harg2 arg3 harg3 arg4 harg4 arg5 harg5 arg6 harg6 arg7 harg7 arg8 harg8 hc0 hc1 x0 x1 x2 x3 x4 = k0_pay4 x0 k0_pay1 x1 := by
  unfold out0_A_5
  rw [View.read_writes_eq_canon _ _ _ (cover0_A_5 c i arg2 harg2 arg3 harg3 arg4 harg4 arg5 harg5 arg6 harg6 arg7 harg7 arg8 harg8 hc0 hc1 x0 x1 x2 x3 x4)]
  unfold kernelRun0_A
  dsimp only
  sl_unfold_words
  rw [View.canon_cons_unit_zero (S := S256x4096) hz, View.readCov_unit_zero (S := S256x4096) _ hz]
  simp only [View.readAt_eq_ld, harg2.read_unread, harg3.read_unread, harg4.read_unread, harg5.read_unread, harg6.read_unread, harg7.read_unread, harg8.read_unread,
    View.ld_unit_zero (S := S256x512) hz, View.ld_unit_zero (S := S512x4096) hz, View.ld_unit_zero (S := S512x128) hz, View.ld_unit_zero (S := S128x4096) hz,
    View.ld_unit_zero (S := S1x4096) hz, View.ld_unit_zero (S := S256x4096) hz, View.ld_unit_zero (S := S256x128) hz]

/-- The first point of a row block: the accumulator is zeroed, read back, and the first product added. -/
theorem acc_A (c : Dev nD) (i : grid0.Coords) (arg2 : Memref sig .tc .vmem S256x512 .bf16) (harg2 : arg2.IsWhole) (arg3 : Memref sig .tc .vmem S512x4096 .bf16) (harg3 : arg3.IsWhole) (arg4 : Memref sig .tc .vmem S512x128 .bf16) (harg4 : arg4.IsWhole) (arg5 : Memref sig .tc .vmem S128x4096 .bf16) (harg5 : arg5.IsWhole) (arg6 : Memref sig .tc .vmem S1x4096 .f32) (harg6 : arg6.IsWhole) (arg7 : Memref sig .tc .vmem S256x4096 .f32) (harg7 : arg7.IsWhole) (arg8 : Memref sig .tc .vmem S256x128 .f32) (harg8 : arg8.IsWhole) (hc0 : cond0_0 i) (hc1 : ¬cond0_1 i) (x0 : Vec F S256x512 .bf16) (x1 : Vec F S512x4096 .bf16) (x2 : Vec F S512x128 .bf16) (x3 : Vec F S128x4096 .bf16) (x4 : Vec F S1x4096 .f32) :
    sout0_A_0 c i arg2 harg2 arg3 harg3 arg4 harg4 arg5 harg5 arg6 harg6 arg7 harg7 arg8 harg8 hc0 hc1 x0 x1 x2 x3 x4 = k0_pay5 x0 k0_pay2 x2 := by
  unfold sout0_A_0
  rw [View.read_writes_eq_canon _ _ _ (scover0_A_0 c i arg2 harg2 arg3 harg3 arg4 harg4 arg5 harg5 arg6 harg6 arg7 harg7 arg8 harg8 hc0 hc1 x0 x1 x2 x3 x4)]
  unfold kernelRun0_A
  dsimp only
  sl_unfold_words
  rw [View.canon_cons_unit_zero (S := S256x128) hz, View.readCov_unit_zero (S := S256x128) _ hz]
  simp only [View.readAt_eq_ld, harg2.read_unread, harg3.read_unread, harg4.read_unread, harg5.read_unread, harg6.read_unread, harg7.read_unread, harg8.read_unread,
    View.ld_unit_zero (S := S256x512) hz, View.ld_unit_zero (S := S512x4096) hz, View.ld_unit_zero (S := S512x128) hz, View.ld_unit_zero (S := S128x4096) hz,
    View.ld_unit_zero (S := S1x4096) hz, View.ld_unit_zero (S := S256x4096) hz, View.ld_unit_zero (S := S256x128) hz]

/-- The last point of a row block: the accumulator takes its last product as at an inner point. -/
theorem acc_C (c : Dev nD) (i : grid0.Coords) (arg2 : Memref sig .tc .vmem S256x512 .bf16) (harg2 : arg2.IsWhole) (arg3 : Memref sig .tc .vmem S512x4096 .bf16) (harg3 : arg3.IsWhole) (arg4 : Memref sig .tc .vmem S512x128 .bf16) (harg4 : arg4.IsWhole) (arg5 : Memref sig .tc .vmem S128x4096 .bf16) (harg5 : arg5.IsWhole) (arg6 : Memref sig .tc .vmem S1x4096 .f32) (harg6 : arg6.IsWhole) (arg7 : Memref sig .tc .vmem S256x4096 .f32) (harg7 : arg7.IsWhole) (arg8 : Memref sig .tc .vmem S256x128 .f32) (harg8 : arg8.IsWhole) (hc0 : ¬cond0_0 i) (hc1 : cond0_1 i) (x0 : Vec F S256x512 .bf16) (x1 : Vec F S512x4096 .bf16) (x2 : Vec F S512x128 .bf16) (x3 : Vec F S128x4096 .bf16) (x4 : Vec F S1x4096 .f32) (xo5 : Vec F S256x4096 .f32) (xs0 : Vec F S256x128 .f32) :
    sout0_C_0 c i arg2 harg2 arg3 harg3 arg4 harg4 arg5 harg5 arg6 harg6 arg7 harg7 arg8 harg8 hc0 hc1 x0 x1 x2 x3 x4 xo5 xs0 = k0_pay5 x0 xs0 x2 := by
  unfold sout0_C_0
  rw [View.read_writes_eq_canon _ _ _ (scover0_C_0 c i arg2 harg2 arg3 harg3 arg4 harg4 arg5 harg5 arg6 harg6 arg7 harg7 arg8 harg8 hc0 hc1 x0 x1 x2 x3 x4 xo5 xs0)]
  unfold kernelRun0_C
  dsimp only
  sl_unfold_words
  rw [View.canon_unit_zero hz]
  simp only [View.readAt_eq_ld, harg2.read_unread, harg3.read_unread, harg4.read_unread, harg5.read_unread, harg6.read_unread, harg7.read_unread, harg8.read_unread,
    View.ld_unit_zero (S := S256x512) hz, View.ld_unit_zero (S := S512x4096) hz, View.ld_unit_zero (S := S512x128) hz, View.ld_unit_zero (S := S128x4096) hz,
    View.ld_unit_zero (S := S1x4096) hz, View.ld_unit_zero (S := S256x4096) hz, View.ld_unit_zero (S := S256x128) hz]

/-- The last point of a row block: the output block takes its last product, then the finished accumulator times the
    B matrix, then the bias row. -/
theorem out_C (c : Dev nD) (i : grid0.Coords) (arg2 : Memref sig .tc .vmem S256x512 .bf16) (harg2 : arg2.IsWhole) (arg3 : Memref sig .tc .vmem S512x4096 .bf16) (harg3 : arg3.IsWhole) (arg4 : Memref sig .tc .vmem S512x128 .bf16) (harg4 : arg4.IsWhole) (arg5 : Memref sig .tc .vmem S128x4096 .bf16) (harg5 : arg5.IsWhole) (arg6 : Memref sig .tc .vmem S1x4096 .f32) (harg6 : arg6.IsWhole) (arg7 : Memref sig .tc .vmem S256x4096 .f32) (harg7 : arg7.IsWhole) (arg8 : Memref sig .tc .vmem S256x128 .f32) (harg8 : arg8.IsWhole) (hc0 : ¬cond0_0 i) (hc1 : cond0_1 i) (x0 : Vec F S256x512 .bf16) (x1 : Vec F S512x4096 .bf16) (x2 : Vec F S512x128 .bf16) (x3 : Vec F S128x4096 .bf16) (x4 : Vec F S1x4096 .f32) (xo5 : Vec F S256x4096 .f32) (xs0 : Vec F S256x128 .f32) :
    out0_C_5 c i arg2 harg2 arg3 harg3 arg4 harg4 arg5 harg5 arg6 harg6 arg7 harg7 arg8 harg8 hc0 hc1 x0 x1 x2 x3 x4 xo5 xs0 = k0_pay6 (k0_pay5 x0 xs0 x2) x3 (k0_pay4 x0 xo5 x1) x4 := by
  unfold out0_C_5
  rw [View.read_writes_eq_canon _ _ _ (cover0_C_5 c i arg2 harg2 arg3 harg3 arg4 harg4 arg5 harg5 arg6 harg6 arg7 harg7 arg8 harg8 hc0 hc1 x0 x1 x2 x3 x4 xo5 xs0)]
  unfold kernelRun0_C
  dsimp only
  sl_unfold_words
  rw [View.canon_cons_unit_zero (S := S256x4096) hz, View.readCov_unit_zero (S := S256x4096) _ hz,
    View.readCov_unit_zero (S := S256x128) _ hz]
  simp only [View.readAt_eq_ld, harg2.read_unread, harg3.read_unread, harg4.read_unread, harg5.read_unread, harg6.read_unread, harg7.read_unread, harg8.read_unread,
    View.ld_unit_zero (S := S256x512) hz, View.ld_unit_zero (S := S512x4096) hz, View.ld_unit_zero (S := S512x128) hz, View.ld_unit_zero (S := S128x4096) hz,
    View.ld_unit_zero (S := S1x4096) hz, View.ld_unit_zero (S := S256x4096) hz, View.ld_unit_zero (S := S256x128) hz]

end Cert.KernelIdeal.Pieces

end
-- ==== Proof.LibPlainMatmul.lean ====
/-
  A plain matrix product into a zero accumulator, read at an entry, at the exact (extended-real) values.

  For an m×k matrix A and a k×n matrix B the product's (a, b) entry is the sum over the contracted coordinate c of
  A(a, c) · B(c, b): the contraction's index set has one axis, of extent k, and is re-indexed by its one coordinate.
-/
import Idealize.ShloMosaic.PureOps.Ideal.Laws
import Idealize.ShloMosaic.Lib.ValueIdx

noncomputable section

open scoped BigOperators

namespace Idealize.ShloMosaic.ValueIdx

open Idealize.ShloMosaic

/-- The (a, b) entry of the plain product of an m×k by a k×n matrix, accumulated into the zero matrix, is
    `∑ c, A (a, c) * B (c, b)` on the extended reals. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant ⟨2, ![m, n]⟩ .f32 0x00000000#32) (ix2 a b)
      = ∑ c : Fin k, A (ix2 a c) * B (ix2 c b) := by
  show FloatOps.matmul (DotDims.plain m k n) prec A B (constant ⟨2, ![m, n]⟩ .f32 0x00000000#32) (ix2 a b) = _
  rw [Ideal.matmul_constant_zero_apply, ← Equiv.sum_comp (contrEquiv1 (DotDims.plain m k n) k rfl rfl).symm]
  refine Finset.sum_congr rfl fun c _ => ?_
  have hc := contrEquiv1_symm_val (DotDims.plain m k n) k rfl rfl c
  have el : (DotDims.plain m k n).lhsIdx (ix2 a b) ((contrEquiv1 (DotDims.plain m k n) k rfl rfl).symm c) = ix2 a c := by
    funext ax; apply Fin.ext
    match ax with
    | ⟨0, _⟩ => simp [DotDims.lhsIdx, DotDims.plain]; rfl
    | ⟨1, _⟩ => simp [DotDims.lhsIdx, DotDims.plain]; exact hc
  have er : (DotDims.plain m k n).rhsIdx (ix2 a b) ((contrEquiv1 (DotDims.plain m k n) k rfl rfl).symm c) = ix2 c b := by
    funext ax; apply Fin.ext
    match ax with
    | ⟨0, _⟩ => simp [DotDims.rhsIdx, DotDims.plain]; exact hc
    | ⟨1, _⟩ => simp [DotDims.rhsIdx, DotDims.plain]; rfl
  rw [el, er]

end Idealize.ShloMosaic.ValueIdx

end
-- ==== Proof.Payload.lean ====
/-
  The body's stored values read at an entry, at the exact (extended-real) values.

  Every matrix product in the body is a plain rows-by-columns product into a zero accumulator, so at an entry it is
  the sum over the contracted coordinate of the products of the operands' entries; the shape casts are between equal
  shapes and change nothing; rounding to bf16 is the identity on exact values; the bias row is broadcast down the
  block's rows.  So, at row p and column q of a block:

    output update        prev(p, q) + Σ_k x(p, k) · w(k, q)
    accumulator update   prev(p, r) + Σ_k x(p, k) · a(k, r)
    finish               (out(p, q) + Σ_r acc(p, r) · b(r, q)) + bias(0, q)
    the two resets       0
-/
import proofs.«155832_j61134564491363_1_alg».proof.Proof.Gen.KernelIdeal.Skeleton
import proofs.«155832_j61134564491363_1_alg».proof.Proof.LibPlainMatmul
import Idealize.ShloMosaic.Lib.Pipeline.Value
import Idealize.ShloMosaic.Lib.ValueIdx
import Idealize.ShloMosaic.Lib.ValueLayout
import Idealize.ShloMosaic.PureOps.Ideal.Laws

noncomputable section

open scoped BigOperators
open Idealize.ShloMosaic Idealize.ShloMosaic.ValueIdx

namespace Cert.KernelIdeal.Payload

open Cert.KernelIdeal Cert.KernelIdeal.Gen

/-- The three printed contraction records are the plain rows-by-columns one. -/
theorem dotW_eq : dot_S256x512_S512x4096_S256x4096_1_0_0_1_n_n = DotDims.plain 256 512 4096 := rfl
theorem dotA_eq : dot_S256x512_S512x128_S256x128_1_0_0_1_n_n = DotDims.plain 256 512 128 := rfl
theorem dotB_eq : dot_S256x128_S128x4096_S256x4096_1_0_0_1_n_n = DotDims.plain 256 128 4096 := rfl

/-- The output reset stores zeros. -/
theorem zeroOut_apply (j : S256x4096.Idx) : k0_pay1 (F := Ideal) j = 0 := by
  unfold k0_pay1
  show Ideal.ofBits .f32 0x00000000#32 = 0
  exact Ideal.ofBits_zero_f32

/-- The accumulator reset stores zeros. -/
theorem zeroAcc_apply (j : S256x128.Idx) : k0_pay2 (F := Ideal) j = 0 := by
  unfold k0_pay2
  rw [shapeCast_self]
  show Ideal.ofBits .f32 0x00000000#32 = 0
  exact Ideal.ofBits_zero_f32

/-- The output update at (p, q): what the block held there plus the x block's row p times the weight block's column q. -/
theorem outStep_apply (x : Vec Ideal S256x512 .bf16) (prev : Vec Ideal S256x4096 .f32) (w : Vec Ideal S512x4096 .bf16)
    (p : Fin 256) (q : Fin 4096) :
    k0_pay4 x prev w (ix2 p q) = prev (ix2 p q) + ∑ k : Fin 512, x (ix2 p k) * w (ix2 k q) := by
  unfold k0_pay4 k0_pay3
  rw [shapeCast_self, shapeCast_self, shapeCast_self, dotW_eq]
  exact congrArg (prev (ix2 p q) + ·) (matmul_plain_zero_apply none x w p q)

/-- The accumulator update at (p, r): what it held there plus the x block's row p times the scaled-A block's column r. -/
theorem accStep_apply (x : Vec Ideal S256x512 .bf16) (prev : Vec Ideal S256x128 .f32) (a : Vec Ideal S512x128 .bf16)
    (p : Fin 256) (r : Fin 128) :
    k0_pay5 x prev a (ix2 p r) = prev (ix2 p r) + ∑ k : Fin 512, x (ix2 p k) * a (ix2 k r) := by
  unfold k0_pay5 k0_pay3
  rw [shapeCast_self, shapeCast_self, shapeCast_self, dotA_eq]
  exact congrArg (prev (ix2 p r) + ·) (matmul_plain_zero_apply none x a p r)

/-- The finish at (p, q): the output block's entry plus the accumulator's row p times B's column q, plus the bias at q. -/
theorem finish_apply (acc : Vec Ideal S256x128 .f32) (b : Vec Ideal S128x4096 .bf16) (out : Vec Ideal S256x4096 .f32)
    (bias : Vec Ideal S1x4096 .f32) (p : Fin 256) (q : Fin 4096) :
    k0_pay6 acc b out bias (ix2 p q)
      = (out (ix2 p q) + ∑ r : Fin 128, acc (ix2 p r) * b (ix2 r q)) + bias (ix2 (0 : Fin 1) q) := by
  unfold k0_pay6
  rw [shapeCast_self, shapeCast_self, shapeCast_self, dotB_eq]
  refine (addf_apply _ _ _).trans ?_
  refine congrArg₂ (· + ·) ((addf_apply _ _ _).trans (congrArg (out (ix2 p q) + ·) ?_)) (broadcastTo_1b_ab_apply bias _ p q)
  exact matmul_plain_zero_apply none (truncf .bf16 acc bitsLt_bf16_f32) b p q

end Cert.KernelIdeal.Payload

end
-- ==== Proof.LibSegmentSum.lean ====
/-
  Sums over an initial segment of `Fin N`, for accumulations that proceed block by block.

  `segSum g n` is the sum of `g` over the indices below `n`.  The empty segment sums to zero (`segSum_zero`), the
  whole segment is the full sum (`segSum_all`), and a segment extended by a block of `W` indices is the segment's sum
  plus the block's (`segSum_add`): an accumulator that starts at zero and adds one block's sum per step holds, after
  the step that adds the block starting at `a`, the segment sum up to `a + W`, and after the last block the full sum.
  Stated in any commutative additive monoid, so it applies to the extended reals, which are not a group.
-/
import Mathlib.Algebra.BigOperators.Fin

open scoped BigOperators

namespace SegmentSum

variable {M : Type*} [AddCommMonoid M] {N : ℕ}

/-- The sum of `g` over the indices of `Fin N` below `n` (indices from `N` on contribute nothing). -/
def segSum (g : Fin N → M) (n : ℕ) : M :=
  ∑ r ∈ Finset.range n, if h : r < N then g ⟨r, h⟩ else 0

/-- The empty segment sums to zero. -/
theorem segSum_zero (g : Fin N → M) : segSum g 0 = 0 := by
  unfold segSum; rw [Finset.range_zero, Finset.sum_empty]

/-- The whole segment is the full sum. -/
theorem segSum_all (g : Fin N → M) : segSum g N = ∑ r : Fin N, g r := by
  unfold segSum
  rw [Finset.sum_range]
  exact Finset.sum_congr rfl fun i _ => by rw [dif_pos i.isLt]

/-- A segment extended by a block of `W` indices: the segment's sum plus the block's. -/
theorem segSum_add (g : Fin N → M) (a W : ℕ) (h : a + W ≤ N) :
    segSum g (a + W) = segSum g a + ∑ p : Fin W, g ⟨a + p.val, by have := p.isLt; omega⟩ := by
  unfold segSum
  rw [Finset.sum_range_add]
  refine congrArg _ ?_
  rw [Finset.sum_range]
  exact Finset.sum_congr rfl fun p _ => by rw [dif_pos (by have := p.isLt; omega)]

end SegmentSum
-- ==== Proof.Spec.lean ====
/-
  The result both programs compute, as one function of five arrays, and the arithmetic of accumulating a long
  contraction block by block.

  With x an 8192×4096 matrix, Wt the transposed sparse weight (4096×4096), At the transposed scaled low-rank factor
  (4096×128), Bt the transposed second low-rank factor (128×4096) and a bias vector, the (p, q) entry of the result is

      ( Σ_k x(p,k)·Wt(k,q)  +  Σ_r ( Σ_k x(p,k)·At(k,r) ) · Bt(r,q) )  +  bias(q).

  The kernel contracts the 4096 values of k in eight blocks of 512: after block j an accumulator that started at zero
  holds the sum over the first 512·(j+1) values of k, and after the eighth block the whole sum.  Only commutativity and
  associativity of + on the extended reals are used; no distributivity, so nothing here needs the inputs finite.
-/
import proofs.«155832_j61134564491363_1_alg».proof.Proof.LibSegmentSum
import Idealize.ShloMosaic.PureOps.Ideal
import Idealize.ShloMosaic.Lib.ValueIdx

noncomputable section

open scoped BigOperators
open Idealize.ShloMosaic Idealize.ShloMosaic.ValueIdx SegmentSum

namespace Cert.Spec

/-- Row p of the row block mi (256 rows to a block), as a row of the whole matrix. -/
def rowOf (mi : ℕ) (p : Fin 256) : Fin 8192 := ⟨(256 * mi + p.val) % 8192, Nat.mod_lt _ (by norm_num)⟩

/-- Contraction index k of block kk (512 to a block), as an index of the whole contraction. -/
def colOf (kk : ℕ) (k : Fin 512) : Fin 4096 := ⟨(512 * kk + k.val) % 4096, Nat.mod_lt _ (by norm_num)⟩

theorem rowOf_val (mi : ℕ) (hmi : mi < 32) (p : Fin 256) : (rowOf mi p).val = 256 * mi + p.val := by
  have := p.isLt
  show (256 * mi + p.val) % 8192 = _
  exact Nat.mod_eq_of_lt (by omega)

theorem colOf_val (kk : ℕ) (hkk : kk < 8) (k : Fin 512) : (colOf kk k).val = 512 * kk + k.val := by
  have := k.isLt
  show (512 * kk + k.val) % 4096 = _
  exact Nat.mod_eq_of_lt (by omega)

/-- One more block of 512 terms: the sum over the first 512·kk + 512 indices is the sum over the first 512·kk plus the
    block's own sum. -/
theorem seg_step (g : Fin 4096 → EReal) (kk : ℕ) (hkk : kk < 8) :
    segSum g (512 * kk + 512) = segSum g (512 * kk) + ∑ k : Fin 512, g (colOf kk k) := by
  rw [segSum_add g (512 * kk) 512 (by omega)]
  refine congrArg (segSum g (512 * kk) + ·) (Finset.sum_congr rfl fun k _ => congrArg g (Fin.ext ?_))
  exact (colOf_val kk hkk k).symm

/-- The first block, added to zero. -/
theorem seg_first (g : Fin 4096 → EReal) : segSum g (512 * 0 + 512) = 0 + ∑ k : Fin 512, g (colOf 0 k) := by
  rw [seg_step g 0 (by norm_num), segSum_zero]

/-- After the eighth block the whole contraction has been summed. -/
theorem seg_last (g : Fin 4096 → EReal) : segSum g (512 * 7 + 512) = ∑ k : Fin 4096, g k :=
  segSum_all g

variable (X : (⟨2, ![8192, 4096]⟩ : Shape).Idx → EReal) (Wt : (⟨2, ![4096, 4096]⟩ : Shape).Idx → EReal)
  (At : (⟨2, ![4096, 128]⟩ : Shape).Idx → EReal) (Bt : (⟨2, ![128, 4096]⟩ : Shape).Idx → EReal) (bias : Fin 4096 → EReal)

/-- The k-th term of x's row p against Wt's column q. -/
def sparseTerm (p : Fin 8192) (q : Fin 4096) (k : Fin 4096) : EReal := X (ix2 p k) * Wt (ix2 k q)

/-- The k-th term of x's row p against At's column r. -/
def factorTerm (p : Fin 8192) (r : Fin 128) (k : Fin 4096) : EReal := X (ix2 p k) * At (ix2 k r)

/-- The low-rank path's inner product x·At at (p, r). -/
def factor (p : Fin 8192) (r : Fin 128) : EReal := ∑ k : Fin 4096, factorTerm X At p r k

/-- The result's (p, q) entry: the sparse product, plus the low-rank product, plus the bias. -/
def fused (p : Fin 8192) (q : Fin 4096) : EReal :=
  ((∑ k : Fin 4096, sparseTerm X Wt p q k) + ∑ r : Fin 128, factor X At p r * Bt (ix2 r q)) + bias q

end Cert.Spec

end
-- ==== Proof.BlockReads.lean ====
/-
  Where each operand's block at a grid point sits in its array.

  Grid point t of the 32 × 8 grid is row block t / 8 and contraction block t % 8.  The x block at t is rows
  256·(t/8) … of x and columns 512·(t%8) …; the sparse-weight block and the scaled-A block are rows 512·(t%8) … of
  their arrays with every column; the B matrix and the bias row are taken whole at every point; the output block is
  rows 256·(t/8) … of the result with every column.
-/
import proofs.«155832_j61134564491363_1_alg».proof.Proof.Gen.KernelIdeal.Frame
import proofs.«155832_j61134564491363_1_alg».proof.Proof.Spec
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.BlockReads

open Cert.KernelIdeal Cert.KernelIdeal.Gen Cert.Spec

variable {F : FTy → Type} [FloatOps F]
variable (m : (ℓ : Loc nD τ sig) → Buf (Elt F) ℓ)

/-- The printed index maps, decided over the grid's 256 points. -/
theorem idx_facts : ∀ t : Fin cfg0.N,
    win0_0.index t (0 : Fin 2) = t.val / 8 ∧ win0_0.index t (1 : Fin 2) = t.val % 8
    ∧ win0_1.index t (0 : Fin 2) = t.val % 8 ∧ win0_1.index t (1 : Fin 2) = 0
    ∧ win0_2.index t (0 : Fin 2) = t.val % 8 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val / 8 ∧ win0_5.index t (1 : Fin 2) = 0 :=
  (by decide +kernel : ∀ t : Fin grid0.N, _)

theorem lt_N (t : Fin cfg0.N) : t.val < 256 := lt_of_lt_of_eq t.isLt (show cfg0.N = 256 from N_0)

/-- The x block at t, entry (p, k): x at row 256·(t/8) + p, column 512·(t%8) + k. -/
theorem xblk (c : Dev nD) (t : Fin cfg0.N) (p : Fin 256) (k : Fin 512) :
    (iblk m c 0 t : Vec F S256x512 .bf16) (ix2 p k) = V m c main_v17 (ix2 (rowOf (t.val / 8) p) (colOf (t.val % 8) k)) := by
  have hN := lt_N t
  obtain ⟨e0, e1, -⟩ := idx_facts t
  unfold iblk
  rw [View.read_apply]
  show V m c main_v17 (((cfg0.win 0).blk t).view.emb (ix2 p k)) = _
  refine congrArg (V m c main_v17) (funext fun a => Fin.ext ?_)
  match a with
  | ⟨0, _⟩ =>
    show win0_0.index t (0 : Fin 2) * 256 + 1 * p.val = (rowOf (t.val / 8) p).val
    rw [rowOf_val _ (by omega), e0]; omega
  | ⟨1, _⟩ =>
    show win0_0.index t (1 : Fin 2) * 512 + 1 * k.val = (colOf (t.val % 8) k).val
    rw [colOf_val _ (by omega), e1]; omega

/-- The sparse-weight block at t, entry (k, q): the transposed weight at row 512·(t%8) + k, column q. -/
theorem wblk (c : Dev nD) (t : Fin cfg0.N) (k : Fin 512) (q : Fin 4096) :
    (iblk m c 1 t : Vec F S512x4096 .bf16) (ix2 k q) = V m c main_v16 (ix2 (colOf (t.val % 8) k) q) := by
  have hN := lt_N t
  obtain ⟨-, -, e2, e3, -⟩ := idx_facts t
  unfold iblk
  rw [View.read_apply]
  show V m c main_v16 (((cfg0.win 1).blk t).view.emb (ix2 k q)) = _
  refine congrArg (V m c main_v16) (funext fun a => Fin.ext ?_)
  match a with
  | ⟨0, _⟩ =>
    show win0_1.index t (0 : Fin 2) * 512 + 1 * k.val = (colOf (t.val % 8) k).val
    rw [colOf_val _ (by omega), e2]; omega
  | ⟨1, _⟩ =>
    show win0_1.index t (1 : Fin 2) * 4096 + 1 * q.val = q.val
    rw [e3]; omega

/-- The scaled-A block at t, entry (k, r): the transposed scaled factor at row 512·(t%8) + k, column r. -/
theorem ablk (c : Dev nD) (t : Fin cfg0.N) (k : Fin 512) (r : Fin 128) :
    (iblk m c 2 t : Vec F S512x128 .bf16) (ix2 k r) = V m c main_v3 (ix2 (colOf (t.val % 8) k) r) := by
  have hN := lt_N t
  obtain ⟨-, -, -, -, e4, e5, -⟩ := idx_facts t
  unfold iblk
  rw [View.read_apply]
  show V m c main_v3 (((cfg0.win 2).blk t).view.emb (ix2 k r)) = _
  refine congrArg (V m c main_v3) (funext fun a => Fin.ext ?_)
  match a with
  | ⟨0, _⟩ =>
    show win0_2.index t (0 : Fin 2) * 512 + 1 * k.val = (colOf (t.val % 8) k).val
    rw [colOf_val _ (by omega), e4]; omega
  | ⟨1, _⟩ =>
    show win0_2.index t (1 : Fin 2) * 128 + 1 * r.val = r.val
    rw [e5]; omega

/-- The B block at every point is the whole transposed B matrix. -/
theorem bblk (c : Dev nD) (t : Fin cfg0.N) (r : Fin 128) (q : Fin 4096) :
    (iblk m c 3 t : Vec F S128x4096 .bf16) (ix2 r q) = V m c main_v5 (ix2 r q) := by
  obtain ⟨-, -, -, -, -, -, e6, e7, -⟩ := idx_facts t
  unfold iblk
  rw [View.read_apply]
  show V m c main_v5 (((cfg0.win 3).blk t).view.emb (ix2 r q)) = _
  refine congrArg (V m c main_v5) (funext fun a => Fin.ext ?_)
  match a with
  | ⟨0, _⟩ =>
    show win0_3.index t (0 : Fin 2) * 128 + 1 * r.val = r.val
    rw [e6]; omega
  | ⟨1, _⟩ =>
    show win0_3.index t (1 : Fin 2) * 4096 + 1 * q.val = q.val
    rw [e7]; omega

/-- The bias block at every point is the whole bias row. -/
theorem biasblk (c : Dev nD) (t : Fin cfg0.N) (u : Fin 1) (q : Fin 4096) :
    (iblk m c 4 t : Vec F S1x4096 .f32) (ix2 u q) = V m c main_v18 (ix2 u q) := by
  obtain ⟨-, -, -, -, -, -, -, -, e8, e9, -⟩ := idx_facts t
  unfold iblk
  rw [View.read_apply]
  show V m c main_v18 (((cfg0.win 4).blk t).view.emb (ix2 u q)) = _
  refine congrArg (V m c main_v18) (funext fun a => Fin.ext ?_)
  match a with
  | ⟨0, _⟩ =>
    show win0_4.index t (0 : Fin 2) * 1 + 1 * u.val = u.val
    rw [e8]; omega
  | ⟨1, _⟩ =>
    show win0_4.index t (1 : Fin 2) * 4096 + 1 * q.val = q.val
    rw [e9]; omega

/-- The output block at t, entry (p, q), sits at row 256·(t/8) + p, column q of the result. -/
theorem oblk_emb (t : Fin cfg0.N) (p : Fin 256) (q : Fin 4096) :
    ((cfg0.win 5).blk t).view.emb (ix2 p q) = ix2 (rowOf (t.val / 8) p) q := by
  have hN := lt_N t
  obtain ⟨-, -, -, -, -, -, -, -, -, -, e10, e11⟩ := idx_facts t
  refine funext fun a => Fin.ext ?_
  match a with
  | ⟨0, _⟩ =>
    show win0_5.index t (0 : Fin 2) * 256 + 1 * p.val = (rowOf (t.val / 8) p).val
    rw [rowOf_val _ (by omega), e10]; omega
  | ⟨1, _⟩ =>
    show win0_5.index t (1 : Fin 2) * 4096 + 1 * q.val = q.val
    rw [e11]; omega

end Cert.KernelIdeal.BlockReads

end
-- ==== Proof.Accumulate.lean ====
/-
  What the output block and the low-rank accumulator hold after each grid point.

  Within a row block the eight points run over the eight contraction blocks in order.  After the point of
  contraction block j the accumulator at (p, r) holds the sum of x(row, k)·At(k, r) over the first 512·(j+1) values of
  k, and — until the last point — the output block at (p, q) holds the sum of x(row, k)·Wt(k, q) over the same k.  At
  the last point (j = 7) both sums are complete, and the output block takes the finished accumulator times Bt and the
  bias: the whole result's entry.  By induction on the point, each point's case read off the body's stored values.
-/
import proofs.«155832_j61134564491363_1_alg».proof.Proof.Pieces
import proofs.«155832_j61134564491363_1_alg».proof.Proof.Payload
import proofs.«155832_j61134564491363_1_alg».proof.Proof.BlockReads
import proofs.«155832_j61134564491363_1_alg».proof.Proof.Spec

noncomputable section

open scoped BigOperators
open Idealize.ShloMosaic Idealize.ShloMosaic.TcCoe Idealize.SL.Sem Idealize.ShloMosaic.ValueIdx SegmentSum
open Idealize.ShloMosaic.Pipeline (Dat)

namespace Cert.KernelIdeal.Accumulate

open Cert.KernelIdeal Cert.KernelIdeal.Gen Cert.Spec Cert.KernelIdeal.BlockReads Cert.KernelIdeal.Payload

variable (m : (ℓ : Loc nD τ sig) → Buf (Elt Ideal) ℓ)

/-- The five arrays the region finds: x, the transposed sparse weight, the transposed scaled factor, the transposed
    second factor, and the bias as a function of the column. -/
abbrev xArr (c : Dev nD) : S8192x4096.Idx → EReal := V m c main_v17
abbrev wArr (c : Dev nD) : S4096x4096.Idx → EReal := V m c main_v16
abbrev aArr (c : Dev nD) : S4096x128.Idx → EReal := V m c main_v3
abbrev bArr (c : Dev nD) : S128x4096.Idx → EReal := V m c main_v5
abbrev biasRow (c : Dev nD) : S1x4096.Idx → EReal := V m c main_v18
def biasFn (c : Dev nD) : Fin 4096 → EReal := fun q => biasRow m c (ix2 (0 : Fin 1) q)

/-- The output block's entry (p, q) after point n. -/
def outEntry (c : Dev nD) (n : ℕ) (p : Fin 256) (q : Fin 4096) : EReal :=
  if n % 8 = 7 then fused (xArr m c) (wArr m c) (aArr m c) (bArr m c) (biasFn m c) (rowOf (n / 8) p) q
  else segSum (sparseTerm (xArr m c) (wArr m c) (rowOf (n / 8) p) q) (512 * (n % 8) + 512)

/-- The accumulator's entry (p, r) after point n. -/
def accEntry (c : Dev nD) (n : ℕ) (p : Fin 256) (r : Fin 128) : EReal :=
  segSum (factorTerm (xArr m c) (aArr m c) (rowOf (n / 8) p) r) (512 * (n % 8) + 512)

def outAfter (c : Dev nD) (n : ℕ) : Vec Ideal S256x4096 .f32 := fun j => outEntry m c n (j 0) (j 1)
def accAfter (c : Dev nD) (n : ℕ) : Vec Ideal S256x128 .f32 := fun j => accEntry m c n (j 0) (j 1)

theorem outAfter_apply (c : Dev nD) (n : ℕ) (p : Fin 256) (q : Fin 4096) : outAfter m c n (ix2 p q) = outEntry m c n p q := rfl
theorem accAfter_apply (c : Dev nD) (n : ℕ) (p : Fin 256) (r : Fin 128) : accAfter m c n (ix2 p r) = accEntry m c n p r := rfl

/-! ## One point's updates over the arrays -/

/-- The output update at point t adds, at (p, q), contraction block t % 8 of x's row against Wt's column q. -/
theorem out_step (c : Dev nD) (t : Fin cfg0.N) (prev : Vec Ideal S256x4096 .f32) (p : Fin 256) (q : Fin 4096) :
    k0_pay4 (iblk m c 0 t) prev (iblk m c 1 t) (ix2 p q)
      = prev (ix2 p q) + ∑ k : Fin 512, sparseTerm (xArr m c) (wArr m c) (rowOf (t.val / 8) p) q (colOf (t.val % 8) k) := by
  refine (outStep_apply (iblk m c 0 t) prev (iblk m c 1 t) p q).trans ?_
  refine congrArg (prev (ix2 p q) + ·) (Finset.sum_congr rfl fun k _ => ?_)
  rw [xblk m c t p k, wblk m c t k q]
  rfl

/-- The accumulator update at point t adds, at (p, r), contraction block t % 8 of x's row against At's column r. -/
theorem acc_step (c : Dev nD) (t : Fin cfg0.N) (prev : Vec Ideal S256x128 .f32) (p : Fin 256) (r : Fin 128) :
    k0_pay5 (iblk m c 0 t) prev (iblk m c 2 t) (ix2 p r)
      = prev (ix2 p r) + ∑ k : Fin 512, factorTerm (xArr m c) (aArr m c) (rowOf (t.val / 8) p) r (colOf (t.val % 8) k) := by
  refine (accStep_apply (iblk m c 0 t) prev (iblk m c 2 t) p r).trans ?_
  refine congrArg (prev (ix2 p r) + ·) (Finset.sum_congr rfl fun k _ => ?_)
  rw [xblk m c t p k, ablk m c t k r]
  rfl

/-- The finish at point t: the output entry, plus the accumulator's row against Bt's column, plus the bias. -/
theorem fin_step (c : Dev nD) (t : Fin cfg0.N) (acc : Vec Ideal S256x128 .f32) (out : Vec Ideal S256x4096 .f32)
    (p : Fin 256) (q : Fin 4096) :
    k0_pay6 acc (iblk m c 3 t) out (iblk m c 4 t) (ix2 p q)
      = (out (ix2 p q) + ∑ r : Fin 128, acc (ix2 p r) * bArr m c (ix2 r q)) + biasFn m c q := by
  refine (finish_apply acc (iblk m c 3 t) out (iblk m c 4 t) p q).trans ?_
  refine congrArg₂ (· + ·) (congrArg (out (ix2 p q) + ·) (Finset.sum_congr rfl fun r _ => ?_)) (biasblk m c t 0 q)
  rw [bblk m c t r q]

/-! ## The three cases at a point -/

/-- The first point of a row block: one block of each sum, added to zero. -/
theorem pointA (c : Dev nD) (t : Fin cfg0.N) (h0 : t.val % 8 = 0) (h1 : ¬t.val % 8 = 7) :
    outsAt0 m c t.val t.isLt = (outAfter m c t.val, accAfter m c t.val) := by
  refine (outsAt0_A m c t h0 h1).trans (congrArg₂ Prod.mk ?_ ?_)
  · refine (Pieces.out_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk m c 0 t) (iblk m c 1 t) (iblk m c 2 t) (iblk m c 3 t) (iblk m c 4 t)).trans ?_
    funext j
    obtain ⟨p, q, rfl⟩ : ∃ (p : Fin 256) (q : Fin 4096), j = ix2 p q := ⟨j 0, j 1, eq_ix2 j⟩
    refine (out_step m c t (k0_pay1 (F := Ideal)) p q).trans ?_
    rw [zeroOut_apply, outAfter_apply]
    unfold outEntry
    rw [if_neg h1, h0]
    exact (seg_first _).symm
  · refine (Pieces.acc_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk m c 0 t) (iblk m c 1 t) (iblk m c 2 t) (iblk m c 3 t) (iblk m c 4 t)).trans ?_
    funext j
    obtain ⟨p, r, rfl⟩ : ∃ (p : Fin 256) (r : Fin 128), j = ix2 p r := ⟨j 0, j 1, eq_ix2 j⟩
    refine (acc_step m c t (k0_pay2 (F := Ideal)) p r).trans ?_
    rw [zeroAcc_apply, accAfter_apply]
    unfold accEntry
    rw [h0]
    exact (seg_first _).symm

/-- An inner point: one more block of each sum. -/
theorem pointB (c : Dev nD) (t : Fin cfg0.N) (h0 : ¬t.val % 8 = 0) (h1 : ¬t.val % 8 = 7)
    (hprev : (outsAt0 m c (t.val - 1) (Nat.lt_of_le_of_lt (Nat.sub_le _ _) t.isLt)) = (outAfter m c (t.val - 1), accAfter m c (t.val - 1))) :
    outsAt0 m c t.val t.isLt = (outAfter m c t.val, accAfter m c t.val) := by
  have hN := lt_N t
  have hd : (t.val - 1) / 8 = t.val / 8 := by omega
  have hm : 512 * ((t.val - 1) % 8) + 512 = 512 * (t.val % 8) := by omega
  have hm7 : ¬(t.val - 1) % 8 = 7 := by omega
  refine (outsAt0_B m c t h0 h1).trans ?_
  rw [hprev]
  refine congrArg₂ Prod.mk ?_ ?_
  · refine (Pieces.out_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (outAfter m c (t.val - 1)) (accAfter m c (t.val - 1))).trans ?_
    funext j
    obtain ⟨p, q, rfl⟩ : ∃ (p : Fin 256) (q : Fin 4096), j = ix2 p q := ⟨j 0, j 1, eq_ix2 j⟩
    refine (out_step m c t _ p q).trans ?_
    rw [outAfter_apply, outAfter_apply]
    unfold outEntry
    rw [if_neg h1, if_neg hm7, hd, hm]
    exact (seg_step _ _ (by omega)).symm
  · refine (Pieces.acc_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (outAfter m c (t.val - 1)) (accAfter m c (t.val - 1))).trans ?_
    funext j
    obtain ⟨p, r, rfl⟩ : ∃ (p : Fin 256) (r : Fin 128), j = ix2 p r := ⟨j 0, j 1, eq_ix2 j⟩
    refine (acc_step m c t _ p r).trans ?_
    rw [accAfter_apply, accAfter_apply]
    unfold accEntry
    rw [hd, hm]
    exact (seg_step _ _ (by omega)).symm

/-- The last point of a row block: the eighth block completes both sums, and the finish assembles the result's entry. -/
theorem pointC (c : Dev nD) (t : Fin cfg0.N) (h0 : ¬t.val % 8 = 0) (h1 : t.val % 8 = 7)
    (hprev : (outsAt0 m c (t.val - 1) (Nat.lt_of_le_of_lt (Nat.sub_le _ _) t.isLt)) = (outAfter m c (t.val - 1), accAfter m c (t.val - 1))) :
    outsAt0 m c t.val t.isLt = (outAfter m c t.val, accAfter m c t.val) := by
  have hN := lt_N t
  have hd : (t.val - 1) / 8 = t.val / 8 := by omega
  have hm : 512 * ((t.val - 1) % 8) + 512 = 512 * (t.val % 8) := by omega
  have hm7 : ¬(t.val - 1) % 8 = 7 := by omega
  have hacc : ∀ (p : Fin 256) (r : Fin 128),
      k0_pay5 (iblk m c 0 t) (accAfter m c (t.val - 1)) (iblk m c 2 t) (ix2 p r) = accEntry m c t.val p r := by
    intro p r
    refine (acc_step m c t _ p r).trans ?_
    rw [accAfter_apply]
    unfold accEntry
    rw [hd, hm]
    exact (seg_step _ _ (by omega)).symm
  refine (outsAt0_C m c t h0 h1).trans ?_
  rw [hprev]
  refine congrArg₂ Prod.mk ?_ ?_
  · refine (Pieces.out_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk m c 0 t) (iblk m c 1 t) (iblk m c 2 t) (iblk m c 3 t) (iblk m c 4 t) (outAfter m c (t.val - 1)) (accAfter m c (t.val - 1))).trans ?_
    funext j
    obtain ⟨p, q, rfl⟩ : ∃ (p : Fin 256) (q : Fin 4096), j = ix2 p q := ⟨j 0, j 1, eq_ix2 j⟩
    refine (fin_step m c t _ _ p q).trans ?_
    rw [outAfter_apply]
    unfold outEntry
    rw [if_pos h1]
    unfold fused
    refine congrArg (· + biasFn m c q) (congrArg₂ (· + ·) ?_ (Finset.sum_congr rfl fun r _ => ?_))
    · refine (out_step m c t _ p q).trans ?_
      rw [outAfter_apply]
      unfold outEntry
      rw [if_neg hm7, hd, hm, ← seg_step _ _ (by omega), h1]
      exact seg_last _
    · rw [hacc p r]
      unfold accEntry factor
      rw [h1, seg_last]
  · refine (Pieces.acc_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk m c 0 t) (iblk m c 1 t) (iblk m c 2 t) (iblk m c 3 t) (iblk m c 4 t) (outAfter m c (t.val - 1)) (accAfter m c (t.val - 1))).trans ?_
    funext j
    obtain ⟨p, r, rfl⟩ : ∃ (p : Fin 256) (r : Fin 128), j = ix2 p r := ⟨j 0, j 1, eq_ix2 j⟩
    exact hacc p r

/-- After every point the output block and the accumulator hold the partial sums above. -/
theorem outsAt_eq (c : Dev nD) : ∀ (k : ℕ) (t : Fin cfg0.N), t.val = k →
    outsAt0 m c t.val t.isLt = (outAfter m c t.val, accAfter m c t.val) := by
  intro k
  induction k with
  | zero => intro t ht; exact pointA m c t (by omega) (by omega)
  | succ k ih =>
    intro t ht
    by_cases h0 : t.val % 8 = 0
    · exact pointA m c t h0 (by omega)
    · have hprev := ih ⟨t.val - 1, Nat.lt_of_le_of_lt (Nat.sub_le _ _) t.isLt⟩ (by show t.val - 1 = k; omega)
      by_cases h1 : t.val % 8 = 7
      · exact pointC m c t h0 h1 hprev
      · exact pointB m c t h0 h1 hprev

end Cert.KernelIdeal.Accumulate

end
-- ==== Proof.Final.lean ====
/-
  The result array after the kernel's run.

  The output block of row block mi is written back once, after that row block's last point, where it holds the whole
  result's entries for its 256 rows; the 32 written-back blocks tile the 8192 rows.  So the result array ends holding,
  at (p, q), the fused entry of the five arrays the region found.
-/
import proofs.«155832_j61134564491363_1_alg».proof.Proof.Gen.KernelIdeal.Value
import proofs.«155832_j61134564491363_1_alg».proof.Proof.Accumulate

noncomputable section

open Idealize.ShloMosaic Idealize.ShloMosaic.TcCoe Idealize.SL.Sem Idealize.ShloMosaic.ValueIdx
open Idealize.ShloMosaic.Pipeline (Dat)

namespace Cert.KernelIdeal.Final

open Cert.KernelIdeal Cert.KernelIdeal.Gen Cert.Spec Cert.KernelIdeal.BlockReads Cert.KernelIdeal.Accumulate

variable (m : (ℓ : Loc nD τ sig) → Buf (Elt Ideal) ℓ) (ρ : Dev nD → PrngReg)

/-- The whole result: at (p, q) the fused entry of the arrays the region found. -/
def result (c : Dev nD) : S8192x4096.Idx → EReal :=
  fun i => fused (xArr m c) (wArr m c) (aArr m c) (bArr m c) (biasFn m c) (i 0) (i 1)

/-- What a write-back writes is the block of the whole result at that point's rows. -/
theorem flushed_eq (c : Dev nD) (t : Fin cfg0.N) (hf : (cfg0.win 5).flush t = true) :
    (dats m 0 c).flushed 5 t = ((cfg0.win 5).blk t).view.read (Elt Ideal) (result m c) := by
  have h7 : t.val % 8 = 7 := (flush0_5 t).mp hf
  rw [Value.flushed5, outsAt_eq m c t.val t rfl]
  funext j
  show outAfter m c t.val j = result m c (((cfg0.win 5).blk t).view.emb j)
  obtain ⟨p, q, rfl⟩ : ∃ (p : Fin 256) (q : Fin 4096), j = ix2 p q := ⟨j 0, j 1, eq_ix2 j⟩
  rw [oblk_emb t p q, outAfter_apply]
  unfold outEntry result
  rw [if_pos h7]

/-- An index of the result is in point t's block iff each coordinate is in the block's range on its axis. -/
theorem mem_blk (t : Fin cfg0.N) (i : S8192x4096.Idx) :
    i ∈ ((cfg0.win 5).blk t).view.set ↔ ∀ a : Fin 2, win0_5.index t a * S256x4096.size a ≤ (i a).val ∧ (i a).val < win0_5.index t a * S256x4096.size a + S256x4096.size a := by
  show i ∈ ((View.whole main_v19).slice (win0_5.rect t)).set ↔ _
  rw [View.set_slice_whole, Rect.mem_set_unit]
  exact Iff.rfl

/-- Every row of the result is in the block written back after its row block's last point. -/
theorem cover (i : S8192x4096.Idx) : ∃ t : Fin cfg0.N, (cfg0.win 5).flush t = true ∧ i ∈ ((cfg0.win 5).blk t).view.set := by
  have hi0 : (i 0).val < 8192 := (i 0).isLt
  have hi1 : (i 1).val < 4096 := (i 1).isLt
  obtain ⟨t, ht⟩ : ∃ t : Fin cfg0.N, t.val = 8 * ((i 0).val / 256) + 7 :=
    ⟨⟨8 * ((i 0).val / 256) + 7, by rw [show cfg0.N = 256 from N_0]; omega⟩, rfl⟩
  refine ⟨t, (flush0_5 t).mpr (by omega), ?_⟩
  obtain ⟨-, -, -, -, -, -, -, -, -, -, e10, e11⟩ := idx_facts t
  rw [mem_blk]
  intro a
  match a with
  | ⟨0, _⟩ =>
    show win0_5.index t (0 : Fin 2) * 256 ≤ (i 0).val ∧ (i 0).val < win0_5.index t (0 : Fin 2) * 256 + 256
    rw [e10]; omega
  | ⟨1, _⟩ =>
    show win0_5.index t (1 : Fin 2) * 4096 ≤ (i 1).val ∧ (i 1).val < win0_5.index t (1 : Fin 2) * 4096 + 4096
    rw [e11]; omega

/-- The result array after the run. -/
theorem final (c : Dev nD) : (dats m 0 c).arrAt 5 cfg0.N = result m c :=
  (dats m 0 c).arrAt_eq_of_cover 5 (result m c) (flushed_eq m c) cover

/-- The kernel's run: the result array at the fused function of the arrays the region found, the arguments unchanged. -/
theorem run : θ_run defs (onTc (τ := τ) (main (F := Ideal))) ⟨m, fun _ => 0, ρ⟩ fun r => ∀ c : Dev nD,
      r.2.mem ((c : Thread nD τ).loc main_v19) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (Value.run_blocks m ρ)

end Cert.KernelIdeal.Final

end
-- ==== Proof.HostPrefix.lean ====
/-
  The arrays the region finds, in terms of the program's arguments.

  Before the kernel the program transposes and scales lora_A, transposes lora_B, scatters the sparse values into a flat
  zero array and reshapes and transposes it, and reshapes the bias to one row — and rounds the matrix operands to
  bf16, which on exact values changes nothing.  These are the same host operations the reference applies (its scaled
  transposed lora_A, its transposed lora_B, its scattered, reshaped and transposed weight), so each array is the
  reference's own intermediate value of the same arguments; the scatter is never opened.
-/
import proofs.«155832_j61134564491363_1_alg».proof.Proof.Gen.KernelIdeal.Frame
import proofs.«155832_j61134564491363_1_alg».proof.Proof.Gen.ReferenceIdeal.Read
import Idealize.ShloMosaic.Lib.StableHlo.Run
import Idealize.ShloMosaic.Lib.ValueIdx
import Idealize.ShloMosaic.Lib.ValueLayout

noncomputable section

open Idealize.ShloMosaic Idealize.ShloMosaic.TcCoe Idealize.SL.Sem Idealize.ShloMosaic.ValueIdx Idealize.ShloMosaic.StableHlo

namespace Cert.KernelIdeal.HostPrefix

open Cert.KernelIdeal Cert.KernelIdeal.Gen

variable (m : (ℓ : Loc nD τ sig) → Buf (Elt Ideal) ℓ)

/-- x as the region finds it (rounded to bf16) is the argument x. -/
theorem x_eq (c : Dev nD) :
    (V m c main_v17 : S8192x4096.Idx → EReal) = m ((c : Thread nD τ).loc main_arg0) := by
  have e : @Eq (FVec Ideal S8192x4096 .bf16) (V m c main_v17)
      (truncf .bf16 (m ((c : Thread nD τ).loc main_arg0) : FVec Ideal S8192x4096 .f32) bitsLt_bf16_f32) := by
    dsimp only [Gen.V, Gen.hostOps0]; after_results <;> rfl
  exact e

/-- The transposed scaled factor is the reference's transposed scaled lora_A. -/
theorem a_eq (c : Dev nD) :
    (V m c main_v3 : S4096x128.Idx → EReal)
      = Cert.ReferenceIdeal.Read.val_main_v2 (F := Ideal) (m ((c : Thread nD τ).loc main_arg2)) := by
  have e : @Eq (FVec Ideal S4096x128 .bf16) (V m c main_v3)
      (truncf .bf16 (transpose S4096x128 [1, 0] (mulf (m ((c : Thread nD τ).loc main_arg2) : FVec Ideal S128x4096 .f32)
          (broadcastInDim S128x4096 ![] bcast_S_S128x4096 (constant (F := Ideal) S_ .f32 0x3C000000#32))) transposes_S128x4096_S4096x128_1_0) bitsLt_bf16_f32) := by
    dsimp only [Gen.V, Gen.hostOps0]; after_results <;> rfl
  exact e

/-- The transposed second factor is the reference's transposed lora_B. -/
theorem b_eq (c : Dev nD) :
    (V m c main_v5 : S128x4096.Idx → EReal)
      = Cert.ReferenceIdeal.Read.val_main_v4 (F := Ideal) (m ((c : Thread nD τ).loc main_arg1)) := by
  have e : @Eq (FVec Ideal S128x4096 .bf16) (V m c main_v5)
      (truncf .bf16 (transpose S128x4096 [1, 0] (m ((c : Thread nD τ).loc main_arg1) : FVec Ideal S4096x128 .f32) transposes_S4096x128_S128x4096_1_0) bitsLt_bf16_f32) := by
    dsimp only [Gen.V, Gen.hostOps0]; after_results <;> rfl
  exact e

/-- The bias row at column q is the bias argument at q. -/
theorem bias_eq (c : Dev nD) (q : Fin 4096) :
    (V m c main_v18 : S1x4096.Idx → EReal) (ix2 (0 : Fin 1) q) = m ((c : Thread nD τ).loc main_arg5) (ix1 q) := by
  have e : @Eq (FVec Ideal S1x4096 .f32) (V m c main_v18)
      (shapeCast S1x4096 (m ((c : Thread nD τ).loc main_arg5) : FVec Ideal S4096 .f32) shapeCasts_S4096_S1x4096) := by
    dsimp only [Gen.V, Gen.hostOps0]; after_results <;> rfl
  rw [e]
  exact shapeCast_a_1a_apply _ _ 0 q

end Cert.KernelIdeal.HostPrefix

end
-- ==== Proof.HostWeight.lean ====
/-
  The transposed sparse weight the region finds is the reference's.

  Both programs build the dense weight the same way: the flat index vector with negative indices wrapped, the
  scatter-add of the sparse values into a flat zero array, the reshape to 4096 × 4096, the transpose; the kernel's
  program then rounds to bf16, which on exact values changes nothing.  The two terms are the same operations of the
  same arguments, so they are equal without the scatter ever being opened.
-/
import proofs.«155832_j61134564491363_1_alg».proof.Proof.Gen.KernelIdeal.Frame
import proofs.«155832_j61134564491363_1_alg».proof.Proof.Gen.ReferenceIdeal.Read
import Idealize.ShloMosaic.Lib.StableHlo.Run

noncomputable section

open Idealize.ShloMosaic Idealize.ShloMosaic.TcCoe Idealize.SL.Sem Idealize.ShloMosaic.StableHlo

namespace Cert.KernelIdeal.HostPrefix

open Cert.KernelIdeal Cert.KernelIdeal.Gen

variable (m : (ℓ : Loc nD τ sig) → Buf (Elt Ideal) ℓ)

/-- The kernel program's dense transposed weight as a function of the sparse values and indices. -/
def weightOf (vals : FVec Ideal S167772 .f32) (idx : IVec S167772 32) : FVec Ideal S4096x4096 .bf16 :=
  truncf .bf16 (transpose S4096x4096 [1, 0] (shapeCast S4096x4096 (Host.scatterAdd (F := Ideal) scatter_S16777216_S167772x1_S167772_n_0_0_1
    (broadcastInDim S16777216 ![] bcast_S_S16777216 (constant (F := Ideal) S_ .f32 0x00000000#32))
    (broadcastInDim S167772x1 ![0] bcast_S167772_S167772x1_0 (select (cmpi .slt idx (broadcastInDim S167772 ![] bcast_S_S167772 (constantI S_ 32 0#32)))
      (addi idx (broadcastInDim S167772 ![] bcast_S_S167772 (constantI S_ 32 16777216#32))) idx))
    vals) shapeCasts_S16777216_S4096x4096) transposes_S4096x4096_S4096x4096_1_0) bitsLt_bf16_f32

/-- It is the reference's transposed weight of the same values and indices. -/
theorem weightOf_eq (vals : FVec Ideal S167772 .f32) (idx : IVec S167772 32) :
    weightOf vals idx = Cert.ReferenceIdeal.Read.val_main_v15 (F := Ideal) vals idx := rfl

set_option maxHeartbeats 1000000 in
/-- The transposed sparse weight as the region finds it. -/
theorem w_eq (c : Dev nD) :
    (V m c main_v16 : S4096x4096.Idx → EReal)
      = Cert.ReferenceIdeal.Read.val_main_v15 (F := Ideal) (m ((c : Thread nD τ).loc main_arg3)) (m ((c : Thread nD τ).loc main_arg4)) := by
  have e : @Eq (FVec Ideal S4096x4096 .bf16) (V m c main_v16)
      (weightOf (m ((c : Thread nD τ).loc main_arg3)) (m ((c : Thread nD τ).loc main_arg4))) := by
    dsimp only [Gen.V, Gen.hostOps0]; after_results_simp <;> rfl
  exact e.trans (weightOf_eq _ _)

end Cert.KernelIdeal.HostPrefix

end
-- ==== Proof.Reference.lean ====
/-
  The reference's result is the fused function of its own intermediate arrays.

  Read one operation at a time, the reference's result at (p, q) is

      ( Σ_r ( Σ_k x(p,k)·A'(k,r) ) · B'(r,q)  +  Σ_k x(p,k)·W'(k,q) )  +  bias(q)

  with A' its transposed scaled lora_A, B' its transposed lora_B and W' its transposed scattered weight: the fused entry
  with the two products added in the other order, equal because addition of extended reals commutes.
-/
import proofs.«155832_j61134564491363_1_alg».proof.Proof.Gen.ReferenceIdeal.Read
import proofs.«155832_j61134564491363_1_alg».proof.Proof.Spec

noncomputable section

open scoped BigOperators
open Idealize.ShloMosaic Idealize.ShloMosaic.ValueIdx

namespace Cert.ReferenceIdeal.Fused

open Cert.ReferenceIdeal Cert.ReferenceIdeal.Read Cert.Spec

/-! The reference's index maps at explicit coordinates. -/

theorem lidx16 (p : Fin 8192) (q : Fin 4096) (k : Fin 4096) : lidx_main_v16 (ix2 p q) k = ix2 p k :=
  funext fun a => Fin.ext (by match a with | ⟨0, _⟩ => rfl | ⟨1, _⟩ => rfl)
theorem ridx16 (p : Fin 8192) (q : Fin 4096) (k : Fin 4096) : ridx_main_v16 (ix2 p q) k = ix2 k q :=
  funext fun a => Fin.ext (by match a with | ⟨0, _⟩ => rfl | ⟨1, _⟩ => rfl)
theorem lidx5 (p : Fin 8192) (q : Fin 4096) (r : Fin 128) : lidx_main_v5 (ix2 p q) r = ix2 p r :=
  funext fun a => Fin.ext (by match a with | ⟨0, _⟩ => rfl | ⟨1, _⟩ => rfl)
theorem ridx5 (p : Fin 8192) (q : Fin 4096) (r : Fin 128) : ridx_main_v5 (ix2 p q) r = ix2 r q :=
  funext fun a => Fin.ext (by match a with | ⟨0, _⟩ => rfl | ⟨1, _⟩ => rfl)
theorem lidx3 (p : Fin 8192) (r : Fin 128) (k : Fin 4096) : lidx_main_v3 (ix2 p r) k = ix2 p k :=
  funext fun a => Fin.ext (by match a with | ⟨0, _⟩ => rfl | ⟨1, _⟩ => rfl)
theorem ridx3 (p : Fin 8192) (r : Fin 128) (k : Fin 4096) : ridx_main_v3 (ix2 p r) k = ix2 k r :=
  funext fun a => Fin.ext (by match a with | ⟨0, _⟩ => rfl | ⟨1, _⟩ => rfl)
theorem idx_bias (p : Fin 8192) (q : Fin 4096) : idx_main_v18 (idx_main_v19 (ix2 p q)) = ix1 q :=
  funext fun a => Fin.ext (by match a with | ⟨0, _⟩ => rfl)

/-- The reference's result is the fused function of x, its transposed weight, its transposed scaled lora_A, its
    transposed lora_B and its bias. -/
theorem result_eq (x0 : FVec Ideal S8192x4096 .f32) (x1 : FVec Ideal S4096x128 .f32) (x2 : FVec Ideal S128x4096 .f32)
    (x3 : FVec Ideal S167772 .f32) (x4 : IVec S167772 32) (x5 : FVec Ideal S4096 .f32) :
    val_main_v20 (F := Ideal) x0 x1 x2 x3 x4 x5
      = fun i => fused x0 (val_main_v15 (F := Ideal) x3 x4) (val_main_v2 (F := Ideal) x2) (val_main_v4 (F := Ideal) x1)
          (fun q => x5 (ix1 q)) (i 0) (i 1) := by
  funext i
  obtain ⟨p, q, rfl⟩ : ∃ (p : Fin 8192) (q : Fin 4096), i = ix2 p q := ⟨i 0, i 1, eq_ix2 i⟩
  rw [val_main_v20_apply, val_main_v17_apply, val_main_v5_apply, val_main_v16_apply, val_main_v19_apply, val_main_v18_apply,
    idx_bias]
  show ((∑ r : Fin 128, val_main_v3 (F := Ideal) x0 x2 (lidx_main_v5 (ix2 p q) r) * val_main_v4 (F := Ideal) x1 (ridx_main_v5 (ix2 p q) r))
      + ∑ k : Fin 4096, x0 (lidx_main_v16 (ix2 p q) k) * val_main_v15 (F := Ideal) x3 x4 (ridx_main_v16 (ix2 p q) k)) + x5 (ix1 q) = _
  unfold fused sparseTerm factor factorTerm
  rw [add_comm (∑ r : Fin 128, _) (∑ k : Fin 4096, _)]
  refine congrArg (· + x5 (ix1 q)) (congrArg₂ (· + ·) (Finset.sum_congr rfl fun k _ => ?_) (Finset.sum_congr rfl fun r _ => ?_))
  · rw [lidx16, ridx16]
  · rw [lidx5, ridx5, val_main_v3_apply]
    refine congrArg (· * val_main_v4 (F := Ideal) x1 (ix2 r q)) (Finset.sum_congr rfl fun k _ => ?_)
    rw [lidx3, ridx3]

end Cert.ReferenceIdeal.Fused

end
-- ==== Proof.lean ====
/-
  The kernel computes x·W_spᵀ + (x·(scale·A)ᵀ)·Bᵀ + bias with the contraction over the 4096 input features cut into
  eight blocks of 512 that it accumulates across the grid, the low-rank factor x·(scale·A)ᵀ accumulated beside it in a
  scratch and multiplied by Bᵀ at the last block; the reference computes the same three terms with whole matrix
  products.  On the extended reals the two results are equal entry by entry:

  * a sum over 4096 indices is the sum of its eight consecutive blocks of 512, taken in order from zero
    (Spec, Accumulate);
  * the operands the kernel reads — x, the transposed scattered weight, the transposed scaled lora_A, the transposed
    lora_B, the bias — are the reference's own intermediate arrays of the same arguments, the roundings to bf16 being
    the identity on exact values (HostPrefix, HostWeight); the scatter that builds the dense weight is the same
    operation on both sides and is never opened;
  * the reference adds the low-rank product first and the sparse product second, the kernel the other way round:
    addition commutes (Reference).

  Only commutativity and associativity of addition are used, so the finiteness of the inputs is not needed.  The three
  frames are the generated runs; the idealization rewrote nothing, so preserves is trivial.
-/
import proofs.«155832_j61134564491363_1_alg».proof.Defs
import proofs.«155832_j61134564491363_1_alg».proof.Proof.Gen.Kernel
import proofs.«155832_j61134564491363_1_alg».proof.Proof.Gen.Kernel.Frame
import proofs.«155832_j61134564491363_1_alg».proof.Proof.Gen.KernelIdeal
import proofs.«155832_j61134564491363_1_alg».proof.Proof.Gen.KernelIdeal.Frame
import proofs.«155832_j61134564491363_1_alg».proof.Proof.Gen.KernelIdeal.Value
import proofs.«155832_j61134564491363_1_alg».proof.Proof.Gen.ReferenceIdeal
import proofs.«155832_j61134564491363_1_alg».proof.Proof.Gen.ReferenceIdeal.Run
import proofs.«155832_j61134564491363_1_alg».proof.Proof.Gen.ReferenceIdeal.Read
import proofs.«155832_j61134564491363_1_alg».proof.Proof.Gen.Pre_finite_inputs
import proofs.«155832_j61134564491363_1_alg».proof.Proof.Final
import proofs.«155832_j61134564491363_1_alg».proof.Proof.HostPrefix
import proofs.«155832_j61134564491363_1_alg».proof.Proof.HostWeight
import proofs.«155832_j61134564491363_1_alg».proof.Proof.Reference
import Idealize.ShloMosaic.Adequacy
import Idealize.ShloMosaic.Init

noncomputable section

namespace Cert.Proof

open Idealize.ShloMosaic Idealize.SL.Sem Idealize.ShloMosaic.ValueIdx

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- The kernel's result array, a fused function of the arrays its region finds, is the reference's fused function of
    the reference's own intermediates of the same arguments. -/
theorem result_agrees (m : (ℓ : Loc Cert.KernelIdeal.nD Cert.KernelIdeal.τ Cert.KernelIdeal.sig) → Buf (Elt Ideal) ℓ)
    (c : Dev Cert.KernelIdeal.nD) :
    (fun i : Cert.ReferenceIdeal.S8192x4096.Idx =>
        Cert.Spec.fused (m ((c.tc : Thread Cert.KernelIdeal.nD Cert.KernelIdeal.τ).loc Cert.KernelIdeal.main_arg0))
          (Cert.ReferenceIdeal.Read.val_main_v15 (F := Ideal) (m ((c.tc : Thread Cert.KernelIdeal.nD Cert.KernelIdeal.τ).loc Cert.KernelIdeal.main_arg3)) (m ((c.tc : Thread Cert.KernelIdeal.nD Cert.KernelIdeal.τ).loc Cert.KernelIdeal.main_arg4)))
          (Cert.ReferenceIdeal.Read.val_main_v2 (F := Ideal) (m ((c.tc : Thread Cert.KernelIdeal.nD Cert.KernelIdeal.τ).loc Cert.KernelIdeal.main_arg2)))
          (Cert.ReferenceIdeal.Read.val_main_v4 (F := Ideal) (m ((c.tc : Thread Cert.KernelIdeal.nD Cert.KernelIdeal.τ).loc Cert.KernelIdeal.main_arg1)))
          (fun q => m ((c.tc : Thread Cert.KernelIdeal.nD Cert.KernelIdeal.τ).loc Cert.KernelIdeal.main_arg5) (ix1 q)) (i 0) (i 1))
      = Cert.KernelIdeal.Final.result m c := by
  unfold Cert.KernelIdeal.Final.result
  have hx : Cert.KernelIdeal.Accumulate.xArr m c = (m ((c.tc : Thread Cert.KernelIdeal.nD Cert.KernelIdeal.τ).loc Cert.KernelIdeal.main_arg0)) := Cert.KernelIdeal.HostPrefix.x_eq m c
  have hw : Cert.KernelIdeal.Accumulate.wArr m c = Cert.ReferenceIdeal.Read.val_main_v15 (F := Ideal) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) :=
    Cert.KernelIdeal.HostPrefix.w_eq m c
  have ha : Cert.KernelIdeal.Accumulate.aArr m c = Cert.ReferenceIdeal.Read.val_main_v2 (F := Ideal) (m ((c.tc : Thread Cert.KernelIdeal.nD Cert.KernelIdeal.τ).loc Cert.KernelIdeal.main_arg2)) :=
    Cert.KernelIdeal.HostPrefix.a_eq m c
  have hbt : Cert.KernelIdeal.Accumulate.bArr m c = Cert.ReferenceIdeal.Read.val_main_v4 (F := Ideal) (m ((c.tc : Thread Cert.KernelIdeal.nD Cert.KernelIdeal.τ).loc Cert.KernelIdeal.main_arg1)) :=
    Cert.KernelIdeal.HostPrefix.b_eq m c
  have hb : Cert.KernelIdeal.Accumulate.biasFn m c = fun q => (m ((c.tc : Thread Cert.KernelIdeal.nD Cert.KernelIdeal.τ).loc Cert.KernelIdeal.main_arg5)) (ix1 q) :=
    funext fun q => Cert.KernelIdeal.HostPrefix.bias_eq m c q
  rw [hx, hw, ha, hbt, hb]

theorem algebraic : Cert.algebraic_KernelIdeal_ReferenceIdeal := by
  intro m ρ m' ρ' _ hagree
  refine ⟨fun c => Cert.KernelIdeal.Final.result m c, Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v20_eq, Cert.ReferenceIdeal.Fused.result_eq,
    (hagree c).1, (hagree c).2.1, (hagree c).2.2.1, (hagree c).2.2.2.1, (hagree c).2.2.2.2.1, (hagree c).2.2.2.2.2]
  exact result_agrees m c

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
